-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S100000 : Shape := ⟨1, ![100000]⟩
abbrev S1x100000 : Shape := ⟨2, ![1, 100000]⟩
abbrev S1x1x1x100000 : Shape := ⟨4, ![1, 1, 1, 100000]⟩
abbrev S2x1x1x100000 : Shape := ⟨4, ![2, 1, 1, 100000]⟩
abbrev S2x100000 : Shape := ⟨2, ![2, 100000]⟩
abbrev S2x700000 : Shape := ⟨2, ![2, 700000]⟩
abbrev S1x700000 : Shape := ⟨2, ![1, 700000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩
abbrev S5000x128 : Shape := ⟨2, ![5000, 128]⟩

abbrev nBuf : Space → Nat
  | .hbm => 121
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x100000, .i32⟩
  | .hbm, ⟨6, _⟩ => ⟨S1x1x1x100000, .i32⟩
  | .hbm, ⟨7, _⟩ => ⟨S2x1x1x100000, .i32⟩
  | .hbm, ⟨8, _⟩ => ⟨S2x100000, .i32⟩
  | .hbm, ⟨9, _⟩ => ⟨S2x700000, .i32⟩
  | .hbm, ⟨10, _⟩ => ⟨S1x700000, .i32⟩
  | .hbm, ⟨11, _⟩ => ⟨S700000, .i32⟩
  | .hbm, ⟨12, _⟩ => ⟨S1x700000, .i32⟩
  | .hbm, ⟨13, _⟩ => ⟨S700000, .i32⟩
  | .hbm, ⟨14, _⟩ => ⟨S_, .f32⟩
  | .hbm, ⟨15, _⟩ => ⟨S100000, .f32⟩
  | .hbm, ⟨16, _⟩ => ⟨S_, .i32⟩
  | .hbm, ⟨17, _⟩ => ⟨S700000, .i32⟩
  | .hbm, ⟨18, _⟩ => ⟨S700000, .i1⟩
  | .hbm, ⟨19, _⟩ => ⟨S_, .i32⟩
  | .hbm, ⟨20, _⟩ => ⟨S700000, .i32⟩
  | .hbm, ⟨21, _⟩ => ⟨S700000, .i32⟩
  | .hbm, ⟨22, _⟩ => ⟨S700000, .i32⟩
  | .hbm, ⟨23, _⟩ => ⟨S700000x1, .i32⟩
  | .hbm, ⟨24, _⟩ => ⟨S_, .f32⟩
  | .hbm, ⟨25, _⟩ => ⟨S700000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .i1⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S_, .f32⟩
  | .hbm, ⟨41, _⟩ => ⟨S_, .f32⟩
  | .hbm, ⟨42, _⟩ => ⟨S100000, .f32⟩
  | .hbm, ⟨43, _⟩ => ⟨S100000, .f32⟩
  | .hbm, ⟨44, _⟩ => ⟨S_, .f32⟩
  | .hbm, ⟨45, _⟩ => ⟨S100000, .f32⟩
  | .hbm, ⟨46, _⟩ => ⟨S100000, .i1⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S_, .f32⟩
  | .hbm, ⟨51, _⟩ => ⟨S_, .f32⟩
  | .hbm, ⟨52, _⟩ => ⟨S100000, .f32⟩
  | .hbm, ⟨53, _⟩ => ⟨S100000, .f32⟩
  | .hbm, ⟨54, _⟩ => ⟨S_, .i32⟩
  | .hbm, ⟨55, _⟩ => ⟨S700000, .i32⟩
  | .hbm, ⟨56, _⟩ => ⟨S700000, .i1⟩
  | .hbm, ⟨57, _⟩ => ⟨S_, .i32⟩
  | .hbm, ⟨58, _⟩ => ⟨S700000, .i32⟩
  | .hbm, ⟨59, _⟩ => ⟨S700000, .i32⟩
  | .hbm, ⟨60, _⟩ => ⟨S700000, .i32⟩
  | .hbm, ⟨61, _⟩ => ⟨S700000x1, .i32⟩
  | .hbm, ⟨62, _⟩ => ⟨S700000, .f32⟩
  | .hbm, ⟨63, _⟩ => ⟨S_, .i32⟩
  | .hbm, ⟨64, _⟩ => ⟨S700000, .i32⟩
  | .hbm, ⟨65, _⟩ => ⟨S700000, .i1⟩
  | .hbm, ⟨66, _⟩ => ⟨S_, .i32⟩
  | .hbm, ⟨67, _⟩ => ⟨S700000, .i32⟩
  | .hbm, ⟨68, _⟩ => ⟨S700000, .i32⟩
  | .hbm, ⟨69, _⟩ => ⟨S700000, .i32⟩
  | .hbm, ⟨70, _⟩ => ⟨S700000x1, .i32⟩
  | .hbm, ⟨71, _⟩ => ⟨S700000, .f32⟩
  | .hbm, ⟨72, _⟩ => ⟨S700000, .f32⟩
  | .hbm, ⟨73, _⟩ => ⟨S700000x1, .f32⟩
  | .hbm, ⟨74, _⟩ => ⟨S_, .f32⟩
  | .hbm, ⟨75, _⟩ => ⟨S100000x128, .f32⟩
  | .hbm, ⟨76, _⟩ => ⟨S_, .i32⟩
  | .hbm, ⟨77, _⟩ => ⟨S700000, .i32⟩
  | .hbm, ⟨78, _⟩ => ⟨S700000, .i1⟩
  | .hbm, ⟨79, _⟩ => ⟨S_, .i32⟩
  | .hbm, ⟨80, _⟩ => ⟨S700000, .i32⟩
  | .hbm, ⟨81, _⟩ => ⟨S700000, .i32⟩
  | .hbm, ⟨82, _⟩ => ⟨S700000, .i32⟩
  | .hbm, ⟨83, _⟩ => ⟨S700000x1, .i32⟩
  | .hbm, ⟨84, _⟩ => ⟨S700000x128, .f32⟩
  | .hbm, ⟨85, _⟩ => ⟨S700000x128, .f32⟩
  | .hbm, ⟨86, _⟩ => ⟨S700000x128, .f32⟩
  | .hbm, ⟨87, _⟩ => ⟨S_, .i32⟩
  | .hbm, ⟨88, _⟩ => ⟨S700000, .i32⟩
  | .hbm, ⟨89, _⟩ => ⟨S700000, .i1⟩
  | .hbm, ⟨90, _⟩ => ⟨S_, .i32⟩
  | .hbm, ⟨91, _⟩ => ⟨S700000, .i32⟩
  | .hbm, ⟨92, _⟩ => ⟨S700000, .i32⟩
  | .hbm, ⟨93, _⟩ => ⟨S700000, .i32⟩
  | .hbm, ⟨94, _⟩ => ⟨S700000x1, .i32⟩
  | .hbm, ⟨95, _⟩ => ⟨S100000x128, .f32⟩
  | .hbm, ⟨96, _⟩ => ⟨S_, .f32⟩
  | .hbm, ⟨97, _⟩ => ⟨S100000x128, .f32⟩
  | .hbm, ⟨98, _⟩ => ⟨S_, .i32⟩
  | .hbm, ⟨99, _⟩ => ⟨S700000, .i32⟩
  | .hbm, ⟨100, _⟩ => ⟨S700000, .i1⟩
  | .hbm, ⟨101, _⟩ => ⟨S_, .i32⟩
  | .hbm, ⟨102, _⟩ => ⟨S700000, .i32⟩
  | .hbm, ⟨103, _⟩ => ⟨S700000, .i32⟩
  | .hbm, ⟨104, _⟩ => ⟨S700000, .i32⟩
  | .hbm, ⟨105, _⟩ => ⟨S700000x1, .i32⟩
  | .hbm, ⟨106, _⟩ => ⟨S700000x128, .f32⟩
  | .hbm, ⟨107, _⟩ => ⟨S700000x128, .f32⟩
  | .hbm, ⟨108, _⟩ => ⟨S700000x128, .f32⟩
  | .hbm, ⟨109, _⟩ => ⟨S_, .i32⟩
  | .hbm, ⟨110, _⟩ => ⟨S700000, .i32⟩
  | .hbm, ⟨111, _⟩ => ⟨S700000, .i1⟩
  | .hbm, ⟨112, _⟩ => ⟨S_, .i32⟩
  | .hbm, ⟨113, _⟩ => ⟨S700000, .i32⟩
  | .hbm, ⟨114, _⟩ => ⟨S700000, .i32⟩
  | .hbm, ⟨115, _⟩ => ⟨S700000, .i32⟩
  | .hbm, ⟨116, _⟩ => ⟨S700000x1, .i32⟩
  | .hbm, ⟨117, _⟩ => ⟨S100000x128, .f32⟩
  | .hbm, ⟨118, _⟩ => ⟨S128x128, .f32⟩
  | .hbm, ⟨119, _⟩ => ⟨S1x128, .f32⟩
  | .hbm, ⟨120, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_call1_v0 : Ref sig .tc := ⟨.hbm, 41, rfl⟩
abbrev main_call1_v1 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_call2_v0 : Ref sig .tc := ⟨.hbm, 51, rfl⟩
abbrev main_call2_v1 : Ref sig .tc := ⟨.hbm, 52, rfl⟩
abbrev main_v31 : Ref sig .tc := ⟨.hbm, 53, rfl⟩
abbrev main_c_10 : Ref sig .tc := ⟨.hbm, 54, rfl⟩
abbrev main_v32 : Ref sig .tc := ⟨.hbm, 55, rfl⟩
abbrev main_v33 : Ref sig .tc := ⟨.hbm, 56, rfl⟩
abbrev main_c_11 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_12 : Ref sig .tc := ⟨.hbm, 63, rfl⟩
abbrev main_v39 : Ref sig .tc := ⟨.hbm, 64, rfl⟩
abbrev main_v40 : Ref sig .tc := ⟨.hbm, 65, rfl⟩
abbrev main_c_13 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_14 : Ref sig .tc := ⟨.hbm, 74, rfl⟩
abbrev main_v48 : Ref sig .tc := ⟨.hbm, 75, rfl⟩
abbrev main_c_15 : Ref sig .tc := ⟨.hbm, 76, rfl⟩
abbrev main_v49 : Ref sig .tc := ⟨.hbm, 77, rfl⟩
abbrev main_v50 : Ref sig .tc := ⟨.hbm, 78, rfl⟩
abbrev main_c_16 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_17 : Ref sig .tc := ⟨.hbm, 87, rfl⟩
abbrev main_v58 : Ref sig .tc := ⟨.hbm, 88, rfl⟩
abbrev main_v59 : Ref sig .tc := ⟨.hbm, 89, rfl⟩
abbrev main_c_18 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_19 : Ref sig .tc := ⟨.hbm, 96, rfl⟩
abbrev main_v65 : Ref sig .tc := ⟨.hbm, 97, rfl⟩
abbrev main_c_20 : Ref sig .tc := ⟨.hbm, 98, rfl⟩
abbrev main_v66 : Ref sig .tc := ⟨.hbm, 99, rfl⟩
abbrev main_v67 : Ref sig .tc := ⟨.hbm, 100, rfl⟩
abbrev main_c_21 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_22 : Ref sig .tc := ⟨.hbm, 109, rfl⟩
abbrev main_v75 : Ref sig .tc := ⟨.hbm, 110, rfl⟩
abbrev main_v76 : Ref sig .tc := ⟨.hbm, 111, rfl⟩
abbrev main_c_23 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S100000_S1x100000_1 : S100000.BroadcastsInDim S1x100000 (![1] : Fin 1 → Fin S1x100000.rank)
  shapeCasts_S1x100000_S1x1x1x100000 : S1x100000.ShapeCasts S1x1x1x100000
  bcast_S1x1x1x100000_S2x1x1x100000_0_1_2_3 : S1x1x1x100000.BroadcastsInDim S2x1x1x100000 (![0, 1, 2, 3] : Fin 4 → Fin S2x1x1x100000.rank)
  shapeCasts_S2x1x1x100000_S2x100000 : S2x1x1x100000.ShapeCasts S2x100000
  concatenates_S2x600000_S2x100000_S2x700000_d1 : Shape.Concatenates [S2x600000, S2x100000] S2x700000 1
  slices_S2x700000_S1x700000_0_0 : S2x700000.Slices ![0, 0] S1x700000
  shapeCasts_S1x700000_S700000 : S1x700000.ShapeCasts S700000
  slices_S2x700000_S1x700000_1_0 : S2x700000.Slices ![1, 0] S1x700000
  bcast_S_S100000 : S_.BroadcastsInDim S100000 (![] : Fin 0 → Fin S100000.rank)
  bcast_S_S700000 : S_.BroadcastsInDim S700000 (![] : Fin 0 → Fin S700000.rank)
  bcast_S700000_S700000x1_0 : S700000.BroadcastsInDim S700000x1 (![0] : Fin 1 → Fin S700000x1.rank)
  bcast_S_S100000x128 : S_.BroadcastsInDim S100000x128 (![] : Fin 0 → Fin S100000x128.rank)
  bcast_S700000x1_S700000x128_0_1 : S700000x1.BroadcastsInDim S700000x128 (![0, 1] : Fin 2 → Fin S700000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v81) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v82) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v83) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v84) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S100000 : Shape := ⟨1, ![100000]⟩
abbrev S1x100000 : Shape := ⟨2, ![1, 100000]⟩
abbrev S1x1x1x100000 : Shape := ⟨4, ![1, 1, 1, 100000]⟩
abbrev S2x1x1x100000 : Shape := ⟨4, ![2, 1, 1, 100000]⟩
abbrev S2x100000 : Shape := ⟨2, ![2, 100000]⟩
abbrev S2x700000 : Shape := ⟨2, ![2, 700000]⟩
abbrev S1x700000 : Shape := ⟨2, ![1, 700000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩

abbrev nBuf : Space → Nat
  | .hbm => 116
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x100000, .i32⟩
  | .hbm, ⟨6, _⟩ => ⟨S1x1x1x100000, .i32⟩
  | .hbm, ⟨7, _⟩ => ⟨S2x1x1x100000, .i32⟩
  | .hbm, ⟨8, _⟩ => ⟨S2x100000, .i32⟩
  | .hbm, ⟨9, _⟩ => ⟨S2x700000, .i32⟩
  | .hbm, ⟨10, _⟩ => ⟨S1x700000, .i32⟩
  | .hbm, ⟨11, _⟩ => ⟨S700000, .i32⟩
  | .hbm, ⟨12, _⟩ => ⟨S1x700000, .i32⟩
  | .hbm, ⟨13, _⟩ => ⟨S700000, .i32⟩
  | .hbm, ⟨14, _⟩ => ⟨S_, .f32⟩
  | .hbm, ⟨15, _⟩ => ⟨S100000, .f32⟩
  | .hbm, ⟨16, _⟩ => ⟨S_, .i32⟩
  | .hbm, ⟨17, _⟩ => ⟨S700000, .i32⟩
  | .hbm, ⟨18, _⟩ => ⟨S700000, .i1⟩
  | .hbm, ⟨19, _⟩ => ⟨S_, .i32⟩
  | .hbm, ⟨20, _⟩ => ⟨S700000, .i32⟩
  | .hbm, ⟨21, _⟩ => ⟨S700000, .i32⟩
  | .hbm, ⟨22, _⟩ => ⟨S700000, .i32⟩
  | .hbm, ⟨23, _⟩ => ⟨S700000x1, .i32⟩
  | .hbm, ⟨24, _⟩ => ⟨S_, .f32⟩
  | .hbm, ⟨25, _⟩ => ⟨S700000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .i1⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S_, .f32⟩
  | .hbm, ⟨44, _⟩ => ⟨S_, .f32⟩
  | .hbm, ⟨45, _⟩ => ⟨S100000, .f32⟩
  | .hbm, ⟨46, _⟩ => ⟨S100000, .f32⟩
  | .hbm, ⟨47, _⟩ => ⟨S_, .i32⟩
  | .hbm, ⟨48, _⟩ => ⟨S700000, .i32⟩
  | .hbm, ⟨49, _⟩ => ⟨S700000, .i1⟩
  | .hbm, ⟨50, _⟩ => ⟨S_, .i32⟩
  | .hbm, ⟨51, _⟩ => ⟨S700000, .i32⟩
  | .hbm, ⟨52, _⟩ => ⟨S700000, .i32⟩
  | .hbm, ⟨53, _⟩ => ⟨S700000, .i32⟩
  | .hbm, ⟨54, _⟩ => ⟨S700000x1, .i32⟩
  | .hbm, ⟨55, _⟩ => ⟨S700000, .f32⟩
  | .hbm, ⟨56, _⟩ => ⟨S_, .i32⟩
  | .hbm, ⟨57, _⟩ => ⟨S700000, .i32⟩
  | .hbm, ⟨58, _⟩ => ⟨S700000, .i1⟩
  | .hbm, ⟨59, _⟩ => ⟨S_, .i32⟩
  | .hbm, ⟨60, _⟩ => ⟨S700000, .i32⟩
  | .hbm, ⟨61, _⟩ => ⟨S700000, .i32⟩
  | .hbm, ⟨62, _⟩ => ⟨S700000, .i32⟩
  | .hbm, ⟨63, _⟩ => ⟨S700000x1, .i32⟩
  | .hbm, ⟨64, _⟩ => ⟨S700000, .f32⟩
  | .hbm, ⟨65, _⟩ => ⟨S700000, .f32⟩
  | .hbm, ⟨66, _⟩ => ⟨S700000x1, .f32⟩
  | .hbm, ⟨67, _⟩ => ⟨S_, .f32⟩
  | .hbm, ⟨68, _⟩ => ⟨S100000x128, .f32⟩
  | .hbm, ⟨69, _⟩ => ⟨S_, .i32⟩
  | .hbm, ⟨70, _⟩ => ⟨S700000, .i32⟩
  | .hbm, ⟨71, _⟩ => ⟨S700000, .i1⟩
  | .hbm, ⟨72, _⟩ => ⟨S_, .i32⟩
  | .hbm, ⟨73, _⟩ => ⟨S700000, .i32⟩
  | .hbm, ⟨74, _⟩ => ⟨S700000, .i32⟩
  | .hbm, ⟨75, _⟩ => ⟨S700000, .i32⟩
  | .hbm, ⟨76, _⟩ => ⟨S700000x1, .i32⟩
  | .hbm, ⟨77, _⟩ => ⟨S700000x128, .f32⟩
  | .hbm, ⟨78, _⟩ => ⟨S700000x128, .f32⟩
  | .hbm, ⟨79, _⟩ => ⟨S700000x128, .f32⟩
  | .hbm, ⟨80, _⟩ => ⟨S_, .i32⟩
  | .hbm, ⟨81, _⟩ => ⟨S700000, .i32⟩
  | .hbm, ⟨82, _⟩ => ⟨S700000, .i1⟩
  | .hbm, ⟨83, _⟩ => ⟨S_, .i32⟩
  | .hbm, ⟨84, _⟩ => ⟨S700000, .i32⟩
  | .hbm, ⟨85, _⟩ => ⟨S700000, .i32⟩
  | .hbm, ⟨86, _⟩ => ⟨S700000, .i32⟩
  | .hbm, ⟨87, _⟩ => ⟨S700000x1, .i32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S_, .i32⟩
  | .hbm, ⟨92, _⟩ => ⟨S700000, .i32⟩
  | .hbm, ⟨93, _⟩ => ⟨S700000, .i1⟩
  | .hbm, ⟨94, _⟩ => ⟨S_, .i32⟩
  | .hbm, ⟨95, _⟩ => ⟨S700000, .i32⟩
  | .hbm, ⟨96, _⟩ => ⟨S700000, .i32⟩
  | .hbm, ⟨97, _⟩ => ⟨S700000, .i32⟩
  | .hbm, ⟨98, _⟩ => ⟨S700000x1, .i32⟩
  | .hbm, ⟨99, _⟩ => ⟨S700000x128, .f32⟩
  | .hbm, ⟨100, _⟩ => ⟨S700000x128, .f32⟩
  | .hbm, ⟨101, _⟩ => ⟨S700000x128, .f32⟩
  | .hbm, ⟨102, _⟩ => ⟨S_, .i32⟩
  | .hbm, ⟨103, _⟩ => ⟨S700000, .i32⟩
  | .hbm, ⟨104, _⟩ => ⟨S700000, .i1⟩
  | .hbm, ⟨105, _⟩ => ⟨S_, .i32⟩
  | .hbm, ⟨106, _⟩ => ⟨S700000, .i32⟩
  | .hbm, ⟨107, _⟩ => ⟨S700000, .i32⟩
  | .hbm, ⟨108, _⟩ => ⟨S700000, .i32⟩
  | .hbm, ⟨109, _⟩ => ⟨S700000x1, .i32⟩
  | .hbm, ⟨110, _⟩ => ⟨S100000x128, .f32⟩
  | .hbm, ⟨111, _⟩ => ⟨S128x128, .f32⟩
  | .hbm, ⟨112, _⟩ => ⟨S100000x128, .f32⟩
  | .hbm, ⟨113, _⟩ => ⟨S1x128, .f32⟩
  | .hbm, ⟨114, _⟩ => ⟨S100000x128, .f32⟩
  | .hbm, ⟨115, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_call1_v0 : Ref sig .tc := ⟨.hbm, 44, rfl⟩
abbrev main_call1_v1 : Ref sig .tc := ⟨.hbm, 45, rfl⟩
abbrev main_v28 : Ref sig .tc := ⟨.hbm, 46, rfl⟩
abbrev main_c_8 : Ref sig .tc := ⟨.hbm, 47, rfl⟩
abbrev main_v29 : Ref sig .tc := ⟨.hbm, 48, rfl⟩
abbrev main_v30 : Ref sig .tc := ⟨.hbm, 49, rfl⟩
abbrev main_c_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_10 : Ref sig .tc := ⟨.hbm, 56, rfl⟩
abbrev main_v36 : Ref sig .tc := ⟨.hbm, 57, rfl⟩
abbrev main_v37 : Ref sig .tc := ⟨.hbm, 58, rfl⟩
abbrev main_c_11 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_12 : Ref sig .tc := ⟨.hbm, 67, rfl⟩
abbrev main_v45 : Ref sig .tc := ⟨.hbm, 68, rfl⟩
abbrev main_c_13 : Ref sig .tc := ⟨.hbm, 69, rfl⟩
abbrev main_v46 : Ref sig .tc := ⟨.hbm, 70, rfl⟩
abbrev main_v47 : Ref sig .tc := ⟨.hbm, 71, rfl⟩
abbrev main_c_14 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_15 : Ref sig .tc := ⟨.hbm, 80, rfl⟩
abbrev main_v55 : Ref sig .tc := ⟨.hbm, 81, rfl⟩
abbrev main_v56 : Ref sig .tc := ⟨.hbm, 82, rfl⟩
abbrev main_c_16 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_17 : Ref sig .tc := ⟨.hbm, 89, rfl⟩
abbrev main_v62 : Ref sig .tc := ⟨.hbm, 90, rfl⟩
abbrev main_c_18 : Ref sig .tc := ⟨.hbm, 91, rfl⟩
abbrev main_v63 : Ref sig .tc := ⟨.hbm, 92, rfl⟩
abbrev main_v64 : Ref sig .tc := ⟨.hbm, 93, rfl⟩
abbrev main_c_19 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_20 : Ref sig .tc := ⟨.hbm, 102, rfl⟩
abbrev main_v72 : Ref sig .tc := ⟨.hbm, 103, rfl⟩
abbrev main_v73 : Ref sig .tc := ⟨.hbm, 104, rfl⟩
abbrev main_c_21 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩

abbrev nD : Nat := 1
abbrev τ : Topo := Topo.v7x

variable {F : FTy → Type} [FloatOps F]

class Facts₀ : Prop where
  bcast_S100000_S1x100000_1 : S100000.BroadcastsInDim S1x100000 (![1] : Fin 1 → Fin S1x100000.rank)
  shapeCasts_S1x100000_S1x1x1x100000 : S1x100000.ShapeCasts S1x1x1x100000
  bcast_S1x1x1x100000_S2x1x1x100000_0_1_2_3 : S1x1x1x100000.BroadcastsInDim S2x1x1x100000 (![0, 1, 2, 3] : Fin 4 → Fin S2x1x1x100000.rank)
  shapeCasts_S2x1x1x100000_S2x100000 : S2x1x1x100000.ShapeCasts S2x100000
  concatenates_S2x600000_S2x100000_S2x700000_d1 : Shape.Concatenates [S2x600000, S2x100000] S2x700000 1
  slices_S2x700000_S1x700000_0_0 : S2x700000.Slices ![0, 0] S1x700000
  shapeCasts_S1x700000_S700000 : S1x700000.ShapeCasts S700000
  slices_S2x700000_S1x700000_1_0 : S2x700000.Slices ![1, 0] S1x700000
  bcast_S_S100000 : S_.BroadcastsInDim S100000 (![] : Fin 0 → Fin S100000.rank)
  bcast_S_S700000 : S_.BroadcastsInDim S700000 (![] : Fin 0 → Fin S700000.rank)
  bcast_S700000_S700000x1_0 : S700000.BroadcastsInDim S700000x1 (![0] : Fin 1 → Fin S700000x1.rank)
  bcast_S_S100000x128 : S_.BroadcastsInDim S100000x128 (![] : Fin 0 → Fin S100000x128.rank)
  bcast_S700000x1_S700000x128_0_1 : S700000x1.BroadcastsInDim S700000x128 (![0, 1] : Fin 2 → Fin S700000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x128_S100000x128_1_0_0_1_n_n_wf : DotDims.WF S100000x128 S128x128 S100000x128 [1] [0] [0] [1] [] []

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LinearHead.lean ====
/-
  The linear head as one function of whole arrays.

  For a feature array `X` of `N` rows and `K` columns, a weight array `W` laid out contraction-axis first
  (`K` rows, `H` columns) and a bias held as one row `B`, the head's entry at row `p`, column `q` is
  `∑ k, X (p, k) * W (k, q) + B (0, q)` on the extended reals. Both programs compute exactly this array: one block
  of rows at a time with the bias row broadcast inside the block, or as one whole product with the bias broadcast
  over all rows.
-/
import Idealize.ShloMosaic.Lib.ValueIdx

noncomputable section

namespace Cert.LinearHead

open Idealize.ShloMosaic Idealize.ShloMosaic.ValueIdx

/-- The head's output array: each row of `X` against each column of `W`, plus that column's bias. -/
def head {N K H : ℕ} (X : (⟨2, ![N, K]⟩ : Shape).Idx → EReal) (W : (⟨2, ![K, H]⟩ : Shape).Idx → EReal)
    (B : (⟨2, ![1, H]⟩ : Shape).Idx → EReal) : (⟨2, ![N, H]⟩ : Shape).Idx → EReal :=
  fun i => (∑ k : Fin K, X (ix2 ⟨(i 0).val, idx2_lt0 i⟩ k) * W (ix2 k ⟨(i 1).val, idx2_lt1 i⟩))
    + B (ix2 (0 : Fin 1) ⟨(i 1).val, idx2_lt1 i⟩)

/-- The head at explicit coordinates. -/
theorem head_apply {N K H : ℕ} (X : (⟨2, ![N, K]⟩ : Shape).Idx → EReal) (W : (⟨2, ![K, H]⟩ : Shape).Idx → EReal)
    (B : (⟨2, ![1, H]⟩ : Shape).Idx → EReal) (p : Fin N) (q : Fin H) :
    head X W B (ix2 p q) = (∑ k : Fin K, X (ix2 p k) * W (ix2 k q)) + B (ix2 (0 : Fin 1) q) := rfl

end Cert.LinearHead

end
-- ==== Proof.RefHead.lean ====
/-
  The reference's result is the linear head of its propagated features.

  The reference ends with one whole product of the propagated features with the transposed weights (contracting
  the features' columns with the transposed weights' rows) and adds the bias broadcast over all rows. Read at row
  `p`, column `q`, the product is `∑ k, X (p, k) * Wt (k, q)` and the broadcast bias is `b q`, which is the entry
  `(0, q)` of the bias laid out as one row.
-/
import proofs.«149008_j74483322847409_2_alg».proof.Proof.RefReadP
import proofs.«149008_j74483322847409_2_alg».proof.Proof.LinearHead
import Idealize.ShloMosaic.Lib.ValueLayout

noncomputable section

namespace Cert.ReferenceIdeal.RefHead

open Cert.ReferenceIdeal Cert.ReferenceIdeal.Gen Cert.ReferenceIdeal.ReadP Idealize.ShloMosaic Idealize.ShloMosaic.ValueIdx
open Cert.LinearHead

/-- The result stage, index by index, is the linear head of the propagated features, the transposed weights and the
    bias as a row. -/
theorem result_is_head (x0 : (⟨S100000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (h : S128.ShapeCasts S1x128) :
    val_main_v83 (F := Ideal) x0 x1 x2 x3
      = head (N := 100000) (K := 128) (H := 128) (val_main_v78 (F := Ideal) x0 x1) (val_main_v79 (F := Ideal) x2)
          (shapeCast S1x128 x3 h) := by
  funext i
  obtain ⟨p, q, rfl⟩ : ∃ (p : Fin 100000) (q : Fin 128), i = ix2 p q := ⟨i 0, i 1, eq_ix2 i⟩
  have el : ∀ k : Fin 128, lidx_main_v80 (ix2 p q) k = ix2 p k := fun k => funext fun a => by
    match a with
    | ⟨0, _⟩ => rfl
    | ⟨1, _⟩ => rfl
  have er : ∀ k : Fin 128, ridx_main_v80 (ix2 p q) k = ix2 k q := fun k => funext fun a => by
    match a with
    | ⟨0, _⟩ => rfl
    | ⟨1, _⟩ => rfl
  have eb : idx_main_v81 (idx_main_v82 (ix2 p q)) = ix1 q := funext fun a => by
    match a with
    | ⟨0, _⟩ => rfl
  rw [head_apply, val_main_v83_apply, val_main_v80_apply, val_main_v82_apply, val_main_v81_apply, eb,
    shapeCast_a_1a_apply x3 h 0 q]
  simp only [el, er]
  rfl

end Cert.ReferenceIdeal.RefHead

end
-- ==== Proof.LibGuardedPower.lean ====
/-
  A power whose base is guarded by the mask that also guards the power.

  Where a mask `C` selects between a power and a fallback `Z`, the power's base may itself be a selection by the
  same mask between the true base `D` and a harmless stand-in `O`: at an index where the mask holds, the inner
  selection returns `D`; where it does not, the outer selection discards the power altogether. Hence
  `select C (pow (select C D O) H) Z = select C (pow D H) Z`, index by index, whatever the pointwise power
  function computes — no property of the power, of the exponent `H` or of the stand-in is used, and the
  statement holds at every float instance.
-/
import Idealize.ShloMosaic.Lib.ValueIdx

noncomputable section

namespace Cert.LibGuardedPower

open Idealize.ShloMosaic

variable {F : FTy → Type} [FloatOps F] {s : Shape} {φ : FTy}

/-- A selection by `C` of a host power whose base is guarded by the same `C` is the selection of the unguarded
    power: the guard's stand-in `O` is never seen. -/
theorem select_powf_select (C : IVec s 1) (D O H Z : FVec F s φ) :
    select C (Host.powf (select C D O) H) Z = select C (Host.powf D H) Z := by
  funext i
  show Scalar.select (C i) (FloatOps.hostPowf (Scalar.select (C i) (D i) (O i)) (H i)) (Z i)
     = Scalar.select (C i) (FloatOps.hostPowf (D i) (H i)) (Z i)
  unfold Scalar.select
  by_cases h : C i = 1
  · simp only [if_pos h]
  · simp only [if_neg h]

end Cert.LibGuardedPower

end
-- ==== Proof.Propagate.lean ====
/-
  The two propagation hops as one function of the inverse-degree vectors.

  Both programs compute the node degrees `d` by a scatter-add of ones, turn them into two vectors of inverse
  square roots, gather those at the edges' end points, multiply them into one weight per edge, and then twice
  replace the features by the scatter-add, over the edges, of the weighted gathered rows. Everything after the two
  inverse-degree vectors is the same chain of operations in both programs; `propagate l r x ei` names that chain
  as one function of the two vectors `l`, `r`, the features `x` and the edge list `ei`, and is never opened.

  The programs differ only in how they form `l` and `r`. The reference takes `d ^ (-1/2)` where `d > 0` and `0`
  elsewhere. The kernel's host code first replaces `d` by `1` where `d > 0` fails and only then takes the power,
  under the same mask. The stand-in is never seen (`LibGuardedPower`), so the two vectors are equal, and both of
  the reference's vectors are this one vector.
-/
import proofs.«149008_j74483322847409_2_alg».proof.Proof.RefReadP
import proofs.«149008_j74483322847409_2_alg».proof.Proof.LibGuardedPower

noncomputable section

namespace Cert.ReferenceIdeal.Propagate

open Cert.ReferenceIdeal Cert.ReferenceIdeal.Gen Cert.ReferenceIdeal.ReadP Idealize.ShloMosaic

variable {F : FTy → Type} [FloatOps F]

/-- One weight per edge, as a column: the left vector at the edge's row node times the right vector at its column
    node. -/
def edgeWeight (l r : (⟨S100000, .f32⟩ : BufTy).Contents (Elt F)) (ei : (⟨S2x600000, .i32⟩ : BufTy).Contents (Elt F)) :
    (⟨S700000x1, .f32⟩ : BufTy).Contents (Elt F) :=
  broadcastInDim S700000x1 ![0] bcast_S700000_S700000x1_0
    (mulf (Host.gather gather_S100000_S700000x1_S700000_n_0_n_n_0_1_1 l (val_main_v34 (F := F) ei))
      (Host.gather gather_S100000_S700000x1_S700000_n_0_n_n_0_1_1 r (val_main_v41 (F := F) ei)))

/-- One hop: the rows of `src` gathered at the edges' column nodes (`srcAt`), each scaled by its edge's weight, and
    scatter-added into `zero` at the edges' row nodes (`dstAt`). -/
def hop (w : (⟨S700000x1, .f32⟩ : BufTy).Contents (Elt F)) (zero src : (⟨S100000x128, .f32⟩ : BufTy).Contents (Elt F))
    (dstAt srcAt : (⟨S700000x1, .i32⟩ : BufTy).Contents (Elt F)) : (⟨S100000x128, .f32⟩ : BufTy).Contents (Elt F) :=
  Host.scatterAdd scatter_S100000x128_S700000x1_S700000x128_1_0_0_1 zero dstAt
    (mulf (broadcastInDim S700000x128 ![0, 1] bcast_S700000x1_S700000x128_0_1 w)
      (Host.gather gather_S100000x128_S700000x1_S700000x128_1_0_n_n_0_1_1128 src srcAt))

/-- The two hops, from the two inverse-degree vectors. -/
def propagate (l r : (⟨S100000, .f32⟩ : BufTy).Contents (Elt F)) (x : (⟨S100000x128, .f32⟩ : BufTy).Contents (Elt F))
    (ei : (⟨S2x600000, .i32⟩ : BufTy).Contents (Elt F)) : (⟨S100000x128, .f32⟩ : BufTy).Contents (Elt F) :=
  hop (edgeWeight l r ei) (val_main_v62 (F := F))
    (hop (edgeWeight l r ei) (val_main_v45 (F := F)) x (val_main_v60 (F := F) ei) (val_main_v51 (F := F) ei))
    (val_main_v77 (F := F) ei) (val_main_v68 (F := F) ei)

/-- The reference's propagated features are the chain applied to its own two inverse-degree vectors. -/
theorem reference_eq (x : (⟨S100000x128, .f32⟩ : BufTy).Contents (Elt F)) (ei : (⟨S2x600000, .i32⟩ : BufTy).Contents (Elt F)) :
    val_main_v78 (F := F) x ei = propagate (val_main_v23 (F := F) ei) (val_main_v28 (F := F) ei) x ei := rfl

/-- The inverse square root of the degrees with the power's base guarded: `d` replaced by `1` outside `d > 0` before
    the power is taken, the power kept only where `d > 0`. -/
def guardedInv (ei : (⟨S2x600000, .i32⟩ : BufTy).Contents (Elt F)) : (⟨S100000, .f32⟩ : BufTy).Contents (Elt F) :=
  select (val_main_v20 (F := F) ei)
    (Host.powf
      (select (val_main_v20 (F := F) ei) (val_main_v18 (F := F) ei)
        (broadcastInDim S100000 ![] bcast_S_S100000 (id (constant S_ .f32 0x3F800000#32))))
      (val_main_v21 (F := F)))
    (val_main_call0_v1 (F := F))

/-- The guarded vector is the reference's left vector: the guard's stand-in is never seen. -/
theorem guardedInv_left (ei : (⟨S2x600000, .i32⟩ : BufTy).Contents (Elt F)) : guardedInv (F := F) ei = val_main_v23 (F := F) ei :=
  Cert.LibGuardedPower.select_powf_select (F := F) (s := S100000) (φ := .f32) (val_main_v20 (F := F) ei) (val_main_v18 (F := F) ei) _
    (val_main_v21 (F := F)) (val_main_call0_v1 (F := F))

/-- The reference's two vectors are one vector (the same mask, the same power, the same fallback), so the guarded
    vector is its right vector too. -/
theorem guardedInv_right (ei : (⟨S2x600000, .i32⟩ : BufTy).Contents (Elt F)) : guardedInv (F := F) ei = val_main_v28 (F := F) ei :=
  (guardedInv_left ei).trans rfl

end Cert.ReferenceIdeal.Propagate

end
-- ==== Proof.HostArrays.lean ====
/-
  The three arrays the kernel's region finds, as functions of the arguments.

  Before the region the kernel's host code runs the graph propagation, transposes the weights and lays the bias out
  as one row. The transposed weights and the bias row are one operation each. The propagated features are the
  shared two-hop chain (`Propagate.propagate`) applied to the inverse-degree vector whose power has a guarded base,
  on both sides of the edge weight; that vector is each of the reference's two vectors (`Propagate.guardedInv_left`,
  `guardedInv_right`), so the propagated features are the reference's.

  The host code's three selections `where(mask, value, constant)` are calls of one outlined function, whose
  operations are stated at typed references and move values along the references' type equations. At the literal
  references of a call those moves are identities; `where0` … `where2` restate each call's three operations without
  them, so that the composed term of the features mentions the degrees' scatter-add only as an operand of the
  comparison, the selection and the power, never under a transport.
-/
import proofs.«149008_j74483322847409_2_alg».proof.Proof.Gen.KernelIdeal.Frame
import proofs.«149008_j74483322847409_2_alg».proof.Proof.Propagate
import Idealize.ShloMosaic.Lib.StableHlo.Run

noncomputable section

namespace Cert.KernelIdeal.HostArrays

open Cert.KernelIdeal Cert.KernelIdeal.Gen Idealize.ShloMosaic Idealize.ShloMosaic.TcCoe Idealize.SL.Sem Idealize.ShloMosaic.StableHlo
open Cert.ReferenceIdeal.Propagate

section Calls

variable {F : FTy → Type} [FloatOps F]

/-- The selection `where(mask, value, constant)` of call 0, in the untyped builders: the constant converted (the identity),
    broadcast, then selected. -/
theorem where0 : (hostOps0_1 : List (HloOp τ sig (Elt F))) =
    [ StableHlo.unary main_cst_3 main_call0_v0 (id : (⟨S_, .f32⟩ : BufTy).Contents (Elt F) → (⟨S_, .f32⟩ : BufTy).Contents (Elt F)),
      StableHlo.unary main_call0_v0 main_call0_v1 (broadcastInDim S100000 ![] bcast_S_S100000 : (⟨S_, .f32⟩ : BufTy).Contents (Elt F) → (⟨S100000, .f32⟩ : BufTy).Contents (Elt F)),
      StableHlo.ternary main_v20 main_v18 main_call0_v1 main_v21 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ] := rfl

/-- The selection `where(mask, value, constant)` of call 1, in the untyped builders: the constant converted (the identity),
    broadcast, then selected. -/
theorem where1 : (hostOps0_3 : List (HloOp τ sig (Elt F))) =
    [ StableHlo.unary main_cst_6 main_call1_v0 (id : (⟨S_, .f32⟩ : BufTy).Contents (Elt F) → (⟨S_, .f32⟩ : BufTy).Contents (Elt F)),
      StableHlo.unary main_call1_v0 main_call1_v1 (broadcastInDim S100000 ![] bcast_S_S100000 : (⟨S_, .f32⟩ : BufTy).Contents (Elt F) → (⟨S100000, .f32⟩ : BufTy).Contents (Elt F)),
      StableHlo.ternary main_v23 main_v25 main_call1_v1 main_v26 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ] := rfl

/-- The selection `where(mask, value, constant)` of call 2, in the untyped builders: the constant converted (the identity),
    broadcast, then selected. -/
theorem where2 : (hostOps0_5 : List (HloOp τ sig (Elt F))) =
    [ StableHlo.unary main_cst_9 main_call2_v0 (id : (⟨S_, .f32⟩ : BufTy).Contents (Elt F) → (⟨S_, .f32⟩ : BufTy).Contents (Elt F)),
      StableHlo.unary main_call2_v0 main_call2_v1 (broadcastInDim S100000 ![] bcast_S_S100000 : (⟨S_, .f32⟩ : BufTy).Contents (Elt F) → (⟨S100000, .f32⟩ : BufTy).Contents (Elt F)),
      StableHlo.ternary main_v28 main_v30 main_call2_v1 main_v31 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ] := rfl

end Calls

variable (m : (ℓ : Loc nD τ sig) → Buf (Elt Ideal) ℓ)

/-- The weights the region finds are the argument transposed. -/
theorem weights (c : Dev nD) :
    V (F := Ideal) m c main_v82 = Cert.ReferenceIdeal.ReadP.val_main_v79 (F := Ideal) (m ((c : Thread nD τ).loc main_arg2)) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- The bias the region finds is the argument laid out as one row. -/
theorem bias (c : Dev nD) :
    V (F := Ideal) m c main_v83 = shapeCast S1x128 (m ((c : Thread nD τ).loc main_arg3)) shapeCasts_S128_S1x128 := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

set_option maxHeartbeats 40000000 in
set_option maxRecDepth 65536 in
/-- The features the region finds are the two hops applied to the guarded inverse-degree vector on both sides. -/
theorem features_guarded (c : Dev nD) :
    V (F := Ideal) m c main_v81
      = propagate (F := Ideal) (guardedInv (F := Ideal) (m ((c : Thread nD τ).loc main_arg1)))
          (guardedInv (F := Ideal) (m ((c : Thread nD τ).loc main_arg1)))
          (m ((c : Thread nD τ).loc main_arg0)) (m ((c : Thread nD τ).loc main_arg1)) := by
  dsimp only [Gen.V]
  simp only [Gen.hostOps0, where0, Gen.hostOps0_2, where1, Gen.hostOps0_4, where2, Gen.hostOps0_6,
    List.flatten_cons, List.flatten_nil, List.append_nil, List.cons_append, List.nil_append]
  after_results_simp
  rfl

/-- So the features the region finds are the reference's propagated features. -/
theorem features (c : Dev nD) :
    V (F := Ideal) m c main_v81
      = Cert.ReferenceIdeal.ReadP.val_main_v78 (F := Ideal) (m ((c : Thread nD τ).loc main_arg0)) (m ((c : Thread nD τ).loc main_arg1)) :=
  (features_guarded m c).trans
    ((congrArg₂ (fun l r => propagate (F := Ideal) l r (m ((c : Thread nD τ).loc main_arg0)) (m ((c : Thread nD τ).loc main_arg1)))
        (guardedInv_left _) (guardedInv_right _)).trans
      (reference_eq _ _).symm)

end Cert.KernelIdeal.HostArrays

end
-- ==== Proof.LibDotRows.lean ====
/-
  A plain two-dimensional matrix product read at an index.

  For dimension numbers that contract the left operand's axis 1 with the right operand's axis 0 and have no batch
  axis — rows × contraction times contraction × columns — the contraction sum at the output index `(p, j)` is
  `∑ k, l (p, k) * r (k, j)`: the one-axis contraction index is its coordinate (`contrEquiv1`), the contracted
  coordinate of each operand index is that coordinate, and the other coordinate is the output's.
  `matmul_zero_rows` is this for a kernel's product into a zero accumulator, `dotGeneral_rows` for the host's
  `dot_general`: at the ideal instance both are that sum.
-/
import Idealize.ShloMosaic.Lib.ValueIdx
import Idealize.ShloMosaic.PureOps.Ideal.Laws

noncomputable section

namespace Cert.LibDotRows

open Idealize.ShloMosaic Idealize.ShloMosaic.ValueIdx

/-- The contraction sum of a plain product at `(p, j)` is `∑ k, l (p, k) * r (k, j)`. The hypotheses are the
    dimension numbers' facts: one contracted axis of extent `K` (`hr`, `hs`), which axes are contracted (`hlc`,
    `hrc`), and that the operands' remaining coordinates are the output's (`h00`, `h11`). -/
theorem sum_contr_rows {N K H : ℕ} (d : DotDims ⟨2, ![N, K]⟩ ⟨2, ![K, H]⟩ ⟨2, ![N, H]⟩)
    (hr : d.contr.rank = 1) (hs : d.contr.size ⟨0, by omega⟩ = K)
    (hlc : d.lhsContracting = [1]) (hrc : d.rhsContracting = [0])
    (h00 : ∀ (i : (⟨2, ![N, H]⟩ : Shape).Idx) (q : d.contr.Idx), (d.lhsIdx i q 0).val = (i 0).val)
    (h11 : ∀ (i : (⟨2, ![N, H]⟩ : Shape).Idx) (q : d.contr.Idx), (d.rhsIdx i q 1).val = (i 1).val)
    (l : (⟨2, ![N, K]⟩ : Shape).Idx → EReal) (r : (⟨2, ![K, H]⟩ : Shape).Idx → EReal) (p : Fin N) (j : Fin H) :
    ∑ q : d.contr.Idx, l (d.lhsIdx (ix2 p j) q) * r (d.rhsIdx (ix2 p j) q) = ∑ k : Fin K, l (ix2 p k) * r (ix2 k j) := by
  rw [← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact h00 _ _
    | ⟨1, _⟩ => exact (d.lhsIdx_val_of_single hlc _ _).trans hk)
  have er : d.rhsIdx (ix2 p j) ((contrEquiv1 d K hr hs).symm k) = ix2 k j := funext fun a => Fin.ext (by
    match a with
    | ⟨0, _⟩ => exact (d.rhsIdx_val_of_single hrc _ _).trans hk
    | ⟨1, _⟩ => exact h11 _ _)
  rw [el, er]

/-- A kernel's plain product into the zero accumulator, at `(p, j)`, at the ideal instance. -/
theorem matmul_zero_rows {N K H : ℕ} {φ₁ φ₂ : FTy} (d : DotDims ⟨2, ![N, K]⟩ ⟨2, ![K, H]⟩ ⟨2, ![N, H]⟩)
    (prec : Option ContractPrecision)
    (hr : d.contr.rank = 1) (hs : d.contr.size ⟨0, by omega⟩ = K)
    (hlc : d.lhsContracting = [1]) (hrc : d.rhsContracting = [0])
    (h00 : ∀ (i : (⟨2, ![N, H]⟩ : Shape).Idx) (q : d.contr.Idx), (d.lhsIdx i q 0).val = (i 0).val)
    (h11 : ∀ (i : (⟨2, ![N, H]⟩ : Shape).Idx) (q : d.contr.Idx), (d.rhsIdx i q 1).val = (i 1).val)
    (l : FVec Ideal ⟨2, ![N, K]⟩ φ₁) (r : FVec Ideal ⟨2, ![K, H]⟩ φ₂) (p : Fin N) (j : Fin H) :
    FloatOps.matmul d prec l r (constant ⟨2, ![N, H]⟩ .f32 0x00000000#32) (ix2 p j) = ∑ k : Fin K, l (ix2 p k) * r (ix2 k j) :=
  (Ideal.matmul_constant_zero_apply d prec l r (ix2 p j)).trans (sum_contr_rows d hr hs hlc hrc h00 h11 l r p j)

/-- The host's plain `dot_general` at `(p, j)`, at the ideal instance. -/
theorem dotGeneral_rows {N K H : ℕ} {φ₁ φ₂ : FTy} (d : DotDims ⟨2, ![N, K]⟩ ⟨2, ![K, H]⟩ ⟨2, ![N, H]⟩)
    (prec : Option ContractPrecision) (sched : HostSchedule)
    (hr : d.contr.rank = 1) (hs : d.contr.size ⟨0, by omega⟩ = K)
    (hlc : d.lhsContracting = [1]) (hrc : d.rhsContracting = [0])
    (h00 : ∀ (i : (⟨2, ![N, H]⟩ : Shape).Idx) (q : d.contr.Idx), (d.lhsIdx i q 0).val = (i 0).val)
    (h11 : ∀ (i : (⟨2, ![N, H]⟩ : Shape).Idx) (q : d.contr.Idx), (d.rhsIdx i q 1).val = (i 1).val)
    (l : FVec Ideal ⟨2, ![N, K]⟩ φ₁) (r : FVec Ideal ⟨2, ![K, H]⟩ φ₂) (p : Fin N) (j : Fin H) :
    FloatOps.dotGeneral d prec sched l r (ix2 p j) = ∑ k : Fin K, l (ix2 p k) * r (ix2 k j) :=
  (Ideal.dotGeneral_apply d prec sched l r (ix2 p j)).trans (sum_contr_rows d hr hs hlc hrc h00 h11 l r p j)

end Cert.LibDotRows

end
-- ==== Proof.BlockProduct.lean ====
/-
  The kernel body's one stored value, read at an index.

  At a grid point the body loads a block `x` of 5000 rows of the propagated features, the whole transposed weight
  matrix `w` and the bias as one row `b`, and stores `x · w + b`: the two operands go through a change of float
  format (the identity on extended reals), the product accumulates into a zero block, and the bias row is broadcast
  over the 5000 rows. So the stored block at row `p`, column `q` is `∑ k, x (p, k) * w (k, q) + b (0, q)`.
-/
import proofs.«149008_j74483322847409_2_alg».proof.Proof.Gen.KernelIdeal.Skeleton
import proofs.«149008_j74483322847409_2_alg».proof.Proof.LibDotRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockProduct

open Cert.KernelIdeal Cert.KernelIdeal.Gen Idealize.ShloMosaic Idealize.ShloMosaic.ValueIdx

/-- The product's dimension numbers: the block's axis 1 is contracted with the weights' axis 0, nothing is batched. -/
abbrev D : DotDims S5000x128 S128x128 S5000x128 := dot_S5000x128_S128x128_S5000x128_1_0_0_1_n_n

/-- The left operand's row coordinate is the output's. -/
theorem lhs_row (i : S5000x128.Idx) (q : D.contr.Idx) : (D.lhsIdx i q 0).val = (i 0).val := by
  unfold DotDims.lhsIdx
  rw [dif_neg (show ¬(0 : Fin S5000x128.rank) ∈ D.lhsBatch by decide),
    dif_pos (show (0 : Fin S5000x128.rank) ∈ D.lhsNonContracting by decide)]
  rfl

/-- The right operand's column coordinate is the output's. -/
theorem rhs_col (i : S5000x128.Idx) (q : D.contr.Idx) : (D.rhsIdx i q 1).val = (i 1).val := by
  unfold DotDims.rhsIdx
  rw [dif_neg (show ¬(1 : Fin S128x128.rank) ∈ D.rhsBatch by decide),
    dif_pos (show (1 : Fin S128x128.rank) ∈ D.rhsNonContracting by decide)]
  rfl

/-- The stored block is the product into zero plus the broadcast bias row: the casts to the operands' own shapes
    are identities. -/
theorem stored_eq (x : FVec Ideal S5000x128 .f32) (w : FVec Ideal S128x128 .f32) (b : FVec Ideal S1x128 .f32) :
    k0_pay1 (F := Ideal) x w b
      = addf (matmul D none (truncf .bf16 x bitsLt_bf16_f32) (truncf .bf16 w bitsLt_bf16_f32)
                (constant S5000x128 .f32 0x00000000#32))
          (broadcastTo S5000x128 b broadcasts_S1x128_S5000x128) := by
  unfold k0_pay1
  simp only [shapeCast_self]

/-- The stored block at row `p`, column `q`: the row of `x` against the column of `w`, plus the bias at `q`. -/
theorem stored_apply (x : FVec Ideal S5000x128 .f32) (w : FVec Ideal S128x128 .f32) (b : FVec Ideal S1x128 .f32)
    (p : Fin 5000) (q : Fin 128) :
    k0_pay1 (F := Ideal) x w b (ix2 p q) = (∑ k : Fin 128, x (ix2 p k) * w (ix2 k q)) + b (ix2 (0 : Fin 1) q) := by
  rw [stored_eq]
  refine congrArg₂ (· + ·) ?_ ?_
  · exact Cert.LibDotRows.matmul_zero_rows D none rfl rfl rfl rfl lhs_row rhs_col
      (truncf .bf16 x bitsLt_bf16_f32) (truncf .bf16 w bitsLt_bf16_f32) p q
  · exact broadcastTo_1b_ab_apply b broadcasts_S1x128_S5000x128 p q

end Cert.KernelIdeal.BlockProduct

end
-- ==== Proof.RowBlocks.lean ====
/-
  From the twenty row blocks to the whole output array.

  The grid has twenty points; point `t` reads rows `5000 t … 5000 t + 4999` of the propagated features, the whole
  transposed weight matrix and the whole bias row (their block index is `(0, 0)` at every point), and writes rows
  `5000 t … 5000 t + 4999` of the output. What it writes is the block product plus the bias row, which at row `p` of
  the block is the linear head of the whole arrays at row `5000 t + p`. The twenty blocks tile the 100000 rows (row
  `r` lies in block `r / 5000`), so after the run the output array is the linear head of the arrays the region
  found. The three arrays are variables throughout: nothing here depends on what they hold.
-/
import proofs.«149008_j74483322847409_2_alg».proof.Proof.Gen.KernelIdeal.Value
import proofs.«149008_j74483322847409_2_alg».proof.Proof.BlockProduct
import proofs.«149008_j74483322847409_2_alg».proof.Proof.LinearHead

noncomputable section

namespace Cert.KernelIdeal.RowBlocks

open Cert.KernelIdeal Cert.KernelIdeal.Gen Cert.KernelIdeal.Value Idealize.ShloMosaic Idealize.ShloMosaic.TcCoe Idealize.SL.Sem
open Idealize.ShloMosaic.ValueIdx Cert.LinearHead
open Idealize.ShloMosaic.Pipeline (Dat)

theorem zero_offsets : (![0, 0] : Fin 2 → Nat) = fun _ => 0 := funext fun a => by fin_cases a <;> rfl

/-- The block index maps, decided over the twenty points: the features' and the output's blocks are numbered by the
    point along the rows, and the weights and the bias are always block `(0, 0)`. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section Blocks

variable (c : Dev nD) (t : Fin cfg0.N)
variable (A0 : Buf (Elt Ideal) ((c : Thread nD τ).loc (Pipeline.arrRef spec0 0)))
  (A1 : Buf (Elt Ideal) ((c : Thread nD τ).loc (Pipeline.arrRef spec0 1)))
  (A2 : Buf (Elt Ideal) ((c : Thread nD τ).loc (Pipeline.arrRef spec0 2)))

/-- Row `p` of the features' block at point `t` is row `5000 t + p` of the features. -/
theorem features_block (p : Fin 5000) (k : Fin 128) (h : t.val * 5000 + p.val < 100000) :
    (((cfg0.win 0).blk t).view.read (Elt Ideal) A0 : FVec Ideal S5000x128 .f32) (ix2 p k)
      = (A0 : FVec Ideal S100000x128 .f32) (ix2 ⟨t.val * 5000 + p.val, h⟩ k) := by
  obtain ⟨e0, e1, -⟩ := block_indices t
  rw [View.read_apply]
  show (A0 : FVec Ideal S100000x128 .f32) _ = (A0 : FVec Ideal S100000x128 .f32) _
  refine congrArg (A0 : FVec Ideal S100000x128 .f32) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The weights' block at any point is the whole weight array. -/
theorem weights_block (k q : Fin 128) :
    (((cfg0.win 1).blk t).view.read (Elt Ideal) A1 : FVec Ideal S128x128 .f32) (ix2 k q)
      = (A1 : FVec Ideal S128x128 .f32) (ix2 k q) := by
  obtain ⟨-, -, e2, e3, -⟩ := block_indices t
  rw [View.read_apply]
  show (A1 : FVec Ideal S128x128 .f32) _ = (A1 : FVec Ideal S128x128 .f32) _
  refine congrArg (A1 : FVec Ideal S128x128 .f32) (funext fun a => Fin.ext ?_)
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- The bias' block at any point is the whole bias row. -/
theorem bias_block (q : Fin 128) :
    (((cfg0.win 2).blk t).view.read (Elt Ideal) A2 : FVec Ideal S1x128 .f32) (ix2 (0 : Fin 1) q)
      = (A2 : FVec Ideal S1x128 .f32) (ix2 (0 : Fin 1) q) := by
  obtain ⟨-, -, -, -, e4, e5, -⟩ := block_indices t
  rw [View.read_apply]
  show (A2 : FVec Ideal S1x128 .f32) _ = (A2 : FVec Ideal S1x128 .f32) _
  refine congrArg (A2 : FVec Ideal S1x128 .f32) (funext fun a => Fin.ext ?_)
  match a with
  | ⟨0, _⟩ => show win0_2.index t (0 : Fin 2) * 1 + 1 * 0 = 0; rw [e4]
  | ⟨1, _⟩ => show win0_2.index t (1 : Fin 2) * 128 + 1 * q.val = q.val; rw [e5]; omega

/-- Entry `(p, q)` of the output's block at point `t` is entry `(5000 t + p, q)` of the output. -/
theorem output_index (p : Fin 5000) (q : Fin 128) (h : t.val * 5000 + p.val < 100000) :
    ((cfg0.win 3).blk t).view.emb (ix2 p q) = (ix2 ⟨t.val * 5000 + p.val, h⟩ q : S100000x128.Idx) := by
  obtain ⟨-, -, -, -, -, -, e6, e7⟩ := block_indices t
  refine funext fun a => Fin.ext ?_
  match a with
  | ⟨0, _⟩ => show win0_3.index t (0 : Fin 2) * 5000 + 1 * p.val = t.val * 5000 + p.val; rw [e6]; omega
  | ⟨1, _⟩ => show win0_3.index t (1 : Fin 2) * 128 + 1 * q.val = q.val; rw [e7]; omega

/-- The entry `(p, q)` of what the body stores from the three arrays' blocks at point `t` is the linear head of the three
    arrays at the output index that entry is written to. -/
theorem block_point (p : Fin 5000) (q : Fin 128) :
    k0_pay1 (F := Ideal) (((cfg0.win 0).blk t).view.read (Elt Ideal) A0) (((cfg0.win 1).blk t).view.read (Elt Ideal) A1)
        (((cfg0.win 2).blk t).view.read (Elt Ideal) A2) (ix2 p q)
      = head (N := 100000) (K := 128) (H := 128) A0 A1 A2 (((cfg0.win 3).blk t).view.emb (ix2 p q)) := by
  have hN : cfg0.N = 20 := N_0
  have ht : t.val < 20 := hN ▸ t.isLt
  have hrow : t.val * 5000 + p.val < 100000 := by have := p.isLt; omega
  rw [output_index t p q hrow, head_apply]
  refine (BlockProduct.stored_apply _ _ _ p q).trans ?_
  exact congrArg₂ (· + ·)
    (Finset.sum_congr rfl fun k _ => congrArg₂ (· * ·) (features_block c t A0 p k hrow) (weights_block c t A1 k q))
    (bias_block c t A2 q)

end Blocks

/-- The body's one store covers its whole buffer, so what it leaves there is the stored value. -/
theorem stored_whole (x0 : Vec Ideal S5000x128 .f32) (x1 : Vec Ideal S128x128 .f32) (x2 : Vec Ideal S1x128 .f32) :
    out0_3 (F := Ideal) x0 x1 x2 = k0_pay1 (F := Ideal) x0 x1 x2 := by
  unfold out0_3
  rw [View.canon_unit_zero zero_offsets]
  simp only [View.ld_unit_zero (S := S5000x128) zero_offsets, View.ld_unit_zero (S := S128x128) zero_offsets,
    View.ld_unit_zero (S := S1x128) zero_offsets]

section Blocks

variable (c : Dev nD) (t : Fin cfg0.N)
variable (A0 : Buf (Elt Ideal) ((c : Thread nD τ).loc (Pipeline.arrRef spec0 0)))
  (A1 : Buf (Elt Ideal) ((c : Thread nD τ).loc (Pipeline.arrRef spec0 1)))
  (A2 : Buf (Elt Ideal) ((c : Thread nD τ).loc (Pipeline.arrRef spec0 2)))

/-- What the body leaves of the three arrays' blocks at point `t`, read through the output's block, is block `t` of
    the linear head of the three arrays. -/
theorem block_eq :
    (cfg0.win 3).cut (grid0.coords t)
        (out0_3 (((cfg0.win 0).blk t).view.read (Elt Ideal) A0) (((cfg0.win 1).blk t).view.read (Elt Ideal) A1)
          (((cfg0.win 2).blk t).view.read (Elt Ideal) A2))
      = ((cfg0.win 3).blk t).view.read (Elt Ideal) (head (N := 100000) (K := 128) (H := 128) A0 A1 A2) := by
  rw [stored_whole]
  funext j
  obtain ⟨p, q, rfl⟩ : ∃ (p : Fin 5000) (q : Fin 128), j = ix2 p q := ⟨j 0, j 1, eq_ix2 j⟩
  exact block_point c t A0 A1 A2 p q

end Blocks

/-- An index of the output is in point `t`'s block iff each coordinate is in the block's range on its axis. -/
theorem mem_block (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v84).slice (win0_3.rect t)).set ↔ _
  rw [View.set_slice_whole, Rect.mem_set_unit]
  exact Iff.rfl

/-- The blocks tile the rows: row `r` of the output lies in the block of point `r / 5000`, and every point writes back. -/
theorem rows_covered (i : S100000x128.Idx) :
    ∃ t : Fin cfg0.N, (cfg0.win 3).flush t = true ∧ i ∈ ((cfg0.win 3).blk t).view.set := by
  have hN : cfg0.N = 20 := N_0
  have h0 : (i 0).val < 100000 := (i 0).isLt
  have h1 : (i 1).val < 128 := (i 1).isLt
  obtain ⟨t, ht⟩ : ∃ t : Fin cfg0.N, t.val = (i 0).val / 5000 := ⟨⟨(i 0).val / 5000, by rw [hN]; omega⟩, rfl⟩
  obtain ⟨-, -, -, -, -, -, e6, e7⟩ := block_indices t
  refine ⟨t, flush0_3 t, ?_⟩
  rw [mem_block]
  intro a
  match a with
  | ⟨0, _⟩ =>
    show win0_3.index t (0 : Fin 2) * 5000 ≤ (i 0).val ∧ (i 0).val < win0_3.index t (0 : Fin 2) * 5000 + 5000
    rw [e6, ht]; omega
  | ⟨1, _⟩ =>
    show win0_3.index t (1 : Fin 2) * 128 ≤ (i 1).val ∧ (i 1).val < win0_3.index t (1 : Fin 2) * 128 + 128
    rw [e7]; omega

variable (m : (ℓ : Loc nD τ sig) → Buf (Elt Ideal) ℓ) (ρ : Dev nD → PrngReg)

/-- WHAT POINT `t` WRITES BACK is block `t` of the linear head of the arrays the region found. -/
theorem flushed_eq (c : Dev nD) (t : Fin cfg0.N) :
    (dats m 0 c).flushed 3 t
      = ((cfg0.win 3).blk t).view.read (Elt Ideal)
          (head (N := 100000) (K := 128) (H := 128) (V m c (Pipeline.arrRef spec0 0)) (V m c (Pipeline.arrRef spec0 1))
            (V m c (Pipeline.arrRef spec0 2))) := by
  rw [flushed3]
  unfold iblk
  exact block_eq c t _ _ _

/-- THE OUTPUT ARRAY after the run is the linear head of the arrays the region found. -/
theorem final (c : Dev nD) :
    (dats m 0 c).arrAt 3 cfg0.N
      = head (N := 100000) (K := 128) (H := 128) (V m c (Pipeline.arrRef spec0 0)) (V m c (Pipeline.arrRef spec0 1))
          (V m c (Pipeline.arrRef spec0 2)) :=
  (dats m 0 c).arrAt_eq_of_cover 3 _ (fun t _ => flushed_eq m c t) rows_covered

end Cert.KernelIdeal.RowBlocks

end
-- ==== Proof.lean ====
/-
  Both programs end with the same array: the linear head of the twice-propagated features.

  The reference's result is, index by index, `∑ k, X (p, k) * W (q, k) + b q`, where `X` is the features after the two
  propagation hops (`RefHead`). The kernel's host code computes the same `X` — it only guards the base of the inverse
  square root of the degrees, under the mask that discards the power there anyway (`Propagate`, `HostArrays`) —,
  transposes `W` and lays `b` out as a row; its region then writes the same head, 5000 rows at a point, and the
  twenty blocks tile the output (`BlockProduct`, `RowBlocks`). No property of the inputs is used beyond their shapes:
  sums and products on the extended reals are only regrouped by blocks of rows, never reordered across an entry, and
  nothing is distributed or cancelled, so finiteness of the inputs plays no part.

  The frames of the two kernel programs are their generated frame runs; the reference's frame is its run with the
  result dropped; the idealization rewrote no operation, so `preserves` is trivial.
-/
import proofs.«149008_j74483322847409_2_alg».proof.Defs
import proofs.«149008_j74483322847409_2_alg».proof.Proof.Gen.Kernel
import proofs.«149008_j74483322847409_2_alg».proof.Proof.Gen.Kernel.Frame
import proofs.«149008_j74483322847409_2_alg».proof.Proof.Gen.KernelIdeal
import proofs.«149008_j74483322847409_2_alg».proof.Proof.Gen.KernelIdeal.Frame
import proofs.«149008_j74483322847409_2_alg».proof.Proof.Gen.KernelIdeal.Value
import proofs.«149008_j74483322847409_2_alg».proof.Proof.Gen.ReferenceIdeal
import proofs.«149008_j74483322847409_2_alg».proof.Proof.Gen.Pre_finite_inputs
import proofs.«149008_j74483322847409_2_alg».proof.Proof.RefRunP
import proofs.«149008_j74483322847409_2_alg».proof.Proof.RefReadP
import proofs.«149008_j74483322847409_2_alg».proof.Proof.RefHead
import proofs.«149008_j74483322847409_2_alg».proof.Proof.HostArrays
import proofs.«149008_j74483322847409_2_alg».proof.Proof.RowBlocks
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

section Kernel

open Cert.KernelIdeal Cert.KernelIdeal.Gen

/-- The kernel's output array after the run is the reference's result stage of the kernel's own arguments: the
    region writes the linear head of the three arrays it finds, and those are the reference's propagated features,
    transposed weights and bias row. -/
theorem kernel_result (m : (ℓ : Loc nD τ sig) → Buf (Elt Ideal) ℓ) (c : Dev nD) :
    (dats m 0 c).arrAt 3 cfg0.N
      = Cert.ReferenceIdeal.ReadP.val_main_v83 (F := Ideal) (m ((c : Thread nD τ).loc main_arg0)) (m ((c : Thread nD τ).loc main_arg1))
          (m ((c : Thread nD τ).loc main_arg2)) (m ((c : Thread nD τ).loc main_arg3)) := by
  rw [Cert.KernelIdeal.RowBlocks.final]
  show Cert.LinearHead.head (N := 100000) (K := 128) (H := 128) (V m c main_v81) (V m c main_v82) (V m c main_v83) = _
  rw [Cert.KernelIdeal.HostArrays.features, Cert.KernelIdeal.HostArrays.weights, Cert.KernelIdeal.HostArrays.bias]
  exact (Cert.ReferenceIdeal.RefHead.result_is_head _ _ _ _ _).symm

end Kernel

/-- From memories that agree on the arguments both programs end with the reference's result stage of those
    arguments. -/
theorem algebraic : Cert.algebraic_KernelIdeal_ReferenceIdeal := by
  intro m ρ m' ρ' _ hagree
  refine ⟨fun c => Cert.ReferenceIdeal.ReadP.val_main_v83 (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)), ?_, ?_⟩
  · exact (θ_run Cert.KernelIdeal.defs _ _).mono (fun r h c => ⟨(h c).1.trans (kernel_result m c), (h c).2⟩)
      (Cert.KernelIdeal.Value.run_blocks m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v83_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
